-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S10000x128 .f32) (main_arg1 : FVec F S10000x10000 .f32) (main_arg2 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128 : Shape := ⟨1, ![128]⟩
abbrev S1x128 : Shape := ⟨2, ![1, 128]⟩
abbrev S640x10000 : Shape := ⟨2, ![640, 10000]⟩
abbrev S640x128 : Shape := ⟨2, ![640, 128]⟩

abbrev nBuf : Space → Nat
  | .hbm => 5
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128, .f32⟩
  | .hbm, ⟨3, _⟩ => ⟨S1x128, .f32⟩
  | .hbm, ⟨4, _⟩ => ⟨S10000x128, .f32⟩
  | .local _ .vmem, ⟨0, _⟩ => ⟨S640x10000, .f32⟩
  | .local _ .vmem, ⟨1, _⟩ => ⟨S640x10000, .f32⟩
  | .local _ .vmem, ⟨2, _⟩ => ⟨S10000x128, .f32⟩
  | .local _ .vmem, ⟨3, _⟩ => ⟨S1x128, .f32⟩
  | .local _ .vmem, ⟨4, _⟩ => ⟨S640x128, .f32⟩
  | .local _ .vmem, ⟨5, _⟩ => ⟨S640x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128_S1x128 : S128.ShapeCasts S1x128
  inb_S640x10000_S640x10000_0_0 : ∀ a, (![0, 0] : Fin 2 → Nat) a + S640x10000.size a ≤ S640x10000.size a
  h_S640x10000 : 0 < S640x10000.numel
  inb_S10000x128_S10000x128_0_0 : ∀ a, (![0, 0] : Fin 2 → Nat) a + S10000x128.size a ≤ S10000x128.size a
  h_S10000x128 : 0 < S10000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S640x128 : S1x128.Broadcasts S640x128
  inb_S640x128_S640x128_0_0 : ∀ a, (![0, 0] : Fin 2 → Nat) a + S640x128.size a ≤ S640x128.size a
  h_S640x128 : 0 < S640x128.numel
  dot_S640x10000_S10000x128_S640x128_1_0_0_1_n_n_wf : DotDims.WF S640x10000 S10000x128 S640x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S640x10000.size a < S10000x10000.size a
  hwx0_0 : ∀ i : grid0.Coords, EltTy.bits .f32 = 32 ∨ (Rect.unit (s := S10000x10000) (fun a => cc0_transform_0 i a * S640x10000.size a) (fun a => (Pipeline.Clip.of (cc0_transform_0 i a) (S640x10000.size a) (S10000x10000.size a)).extent (S640x10000.size a)) fun a => Pipeline.Clip.inb (Pipeline.Clip.ok_of (hstart0_0 i a))).WholeWords (EltTy.packing .f32)
  hwxs0_0 : ∀ i : grid0.Coords, EltTy.bits .f32 = 32 ∨ (Rect.unit (s := S640x10000) (fun _ => 0) (fun a => (Pipeline.Clip.of (cc0_transform_0 i a) (S640x10000.size a) (S10000x10000.size a)).extent (S640x10000.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S640x128.size a < S10000x128.size a
  hwx0_3 : ∀ i : grid0.Coords, EltTy.bits .f32 = 32 ∨ (Rect.unit (s := S10000x128) (fun a => cc0_transform_3 i a * S640x128.size a) (fun a => (Pipeline.Clip.of (cc0_transform_3 i a) (S640x128.size a) (S10000x128.size a)).extent (S640x128.size a)) fun a => Pipeline.Clip.inb (Pipeline.Clip.ok_of (hstart0_3 i a))).WholeWords (EltTy.packing .f32)
  hwxs0_3 : ∀ i : grid0.Coords, EltTy.bits .f32 = 32 ∨ (Rect.unit (s := S640x128) (fun _ => 0) (fun a => (Pipeline.Clip.of (cc0_transform_3 i a) (S640x128.size a) (S10000x128.size a)).extent (S640x128.size a)) fun a => (Nat.zero_add _).trans_le (Pipeline.Clip.extent_le (Pipeline.Clip.ok_of (hstart0_3 i a)))).WholeWords (EltTy.packing .f32)

variable [Facts₀]

def dot_S640x10000_S10000x128_S640x128_1_0_0_1_n_n : DotDims S640x10000 S10000x128 S640x128 where
  lhsContracting := [1]
  rhsContracting := [0]
  lhsNonContracting := [0]
  rhsNonContracting := [1]
  lhsBatch := []
  rhsBatch := []
  wf := dot_S640x10000_S10000x128_S640x128_1_0_0_1_n_n_wf

abbrev win0_0 : Pipeline.Window sig grid0 :=
  Pipeline.Window.ofSpecClip (Memref.whole main_arg1) S640x10000.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v1) S640x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128 : Shape := ⟨1, ![128]⟩
abbrev S_ : Shape := ⟨0, ![]⟩
abbrev S128x128 : Shape := ⟨2, ![128, 128]⟩
abbrev S128x1 : Shape := ⟨2, ![128, 1]⟩

abbrev nBuf : Space → Nat
  | .hbm => 18
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128x128, .i32⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i1⟩
  | .hbm, ⟨11, _⟩ => ⟨S128x1, .f32⟩
  | .hbm, ⟨12, _⟩ => ⟨S_, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S10000x128, .f32⟩
  | .hbm, ⟨17, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_c : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_0 : Ref sig .tc := ⟨.hbm, 12, rfl⟩
abbrev main_call0_call0_v0 : Ref sig .tc := ⟨.hbm, 13, rfl⟩
abbrev main_call0_call0_v1 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩

abbrev nD : Nat := 1
abbrev τ : Topo := Topo.v7x

variable {F : FTy → Type} [FloatOps F]

class Facts₀ : Prop where
  pads_S128_S128_000 : S128.Pads (![0] : Fin 1 → Nat) ![0] ![0] S128
  h_S_ : 0 < S_.numel
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelFrame.lean ====
/- The frame of the word-level program: the run of @main leaves its three argument arrays as launched.
   The kernel multiplies a 640-row block of A by x and scales the columns by W. The last of the 16 row
   blocks overhangs the 10000-row array by 240 rows, so the staged copy of that block of A has tail rows
   that no array element names, and the product computed from them cannot be named either: the result's
   staging buffer is carried through the run at unnamed contents, and only the inputs are tracked. -/
import proofs.«175242_g78194174591220_cont_9to1_m_1274_13_alg».proof.Proof.Gen.Kernel.Frame
import proofs.«175242_g78194174591220_cont_9to1_m_1274_13_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each staging buffer whole -/

abbrev rA : Rect S640x10000 := Rect.unit (s := S640x10000) ![0, 0] S640x10000.size inb_S640x10000_S640x10000_0_0
abbrev rX : Rect S10000x128 := Rect.unit (s := S10000x128) ![0, 0] S10000x128.size inb_S10000x128_S10000x128_0_0
abbrev rW : Rect S1x128 := Rect.unit (s := S1x128) ![0, 0] S1x128.size inb_S1x128_S1x128_0_0
abbrev rO : Rect S640x128 := Rect.unit (s := S640x128) ![0, 0] S640x128.size inb_S640x128_S640x128_0_0

/-! ## What the body leaves in the result's buffer -/

/-- The result's staging buffer after the body, from what the three input buffers hold: the one store,
    of the scaled product of the loaded blocks, over the whole buffer. -/
def out0_3 (x0 : Vec F S640x10000 .f32) (x1 : Vec F S10000x128 .f32) (x2 : Vec F S1x128 .f32) : Vec F S640x128 .f32 :=
  View.canon [⟨rO, k0_pay1 (View.ld x0 rA) (View.ld x1 rX) (View.ld x2 rW)⟩]

/-- The one store is of the whole buffer, so it covers it. -/
theorem cover0_3 (p0 : Vec F S640x128 .f32) (y : S640x128.Idx) :
    ∃ pc ∈ ([⟨rO, p0⟩] : List (View.Piece (Elt F) S640x128 .f32)), y ∈ pc.1.set :=
  View.cover_of_tiled [⟨rO, p0⟩] S640x128.size (by rfl) y

/-! ## The body's triple -/

set_option maxHeartbeats 1000000 in
/-- The body on whole staging memrefs, the three inputs' at contents `x0 x1 x2` and the result's at anything, runs
    to the continuation holding the inputs' as they were and the result's at `out0_3 x0 x1 x2`. The body reads the
    result's buffer once before the store; nothing uses what it reads. -/
theorem sound_kernel (c : Dev nD) (E : Set ℕ) (i : grid0.Coords) (arg1 : Memref sig .tc .vmem S640x10000 .f32) (harg1 : arg1.IsWhole) (arg2 : Memref sig .tc .vmem S10000x128 .f32) (harg2 : arg2.IsWhole) (arg3 : Memref sig .tc .vmem S1x128 .f32) (harg3 : arg3.IsWhole) (arg4 : Memref sig .tc .vmem S640x128 .f32) (harg4 : arg4.IsWhole)
    (x0 : Vec F S640x10000 .f32) (x1 : Vec F S10000x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__gcn_body i arg1 harg1 arg2 harg2 arg3 harg3 arg4 harg4) K := by
  simp only [cc0__gcn_body_eq_skeleton]; unfold cc0__gcn_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

variable (m : (ℓ : Loc nD τ sig) → Buf (Elt F) ℓ) (ρ : Dev nD → PrngReg)

/-! ## The pipeline's proof data -/

/-- The window carried at unnamed contents: the result's (window 3). Its last block overhangs the array, and the
    product of a staged block of A whose tail rows nothing names cannot be named; the claim reads none of it. -/
def forgets0 : Fin 4 → Bool := fun w => w.val == 3

/-- What the staged block of A is stated to hold after the body at point `t`: the block's part inside the array,
    filled out to the buffer's 640 rows with the zero word. Past the array's end nothing is claimed (the window is
    loose there), so the filler is never read. -/
def ablk8 (c : Dev nD) (t : Fin cfg0.N) : S640x10000.Idx → Elt F .f32 :=
  win0_0.fill (grid0.coords t) (fun _ => Scalar.ofBits .f32 0#32) (iblk m c 0 t)

/-- The proof data of the one pipeline on core `c`: the arrays as the region finds them; after the body at point `t`
    the block of A at `ablk8`, x and the weight row at their (whole) blocks, the result's buffer unnamed; the
    invariant the scoped rest and the random-number register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => ablk8 m c t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The proof data's arrays are the region-entry contents (the definition projected, the entry contents kept folded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = ablk8 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- The block of A is fetched at every point: its buffer holds the block on the rows inside the array and whatever the
    buffer was overwritten with, `d`, on the rows past its end. -/
theorem before0_0 (c : Dev nD) (t : Fin cfg0.N) (d) :
    (dats m 0 c).before 0 t d = win0_0.fill (grid0.coords t) d (iblk m c 0 t) := by
  rw [Dat.before_fetched _ 0 t (fetch0_0 t)]
  unfold Dat.fetched Dat.blockOf iblk
  rw [A_eq]
/-- x and the weight row are fetched once and never cut: their buffers hold them at every point. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one: the three inputs' buffers at what they are found
    holding, the result's at anything; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- and what it returns: the block of A stated on the rows inside the array only, x and the weight row as they were,
    the result's buffer at anything. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X))

/-- The body at any point: the inputs' buffers hold the block of A filled out with some `d`, x and the weight row, so
    the body's triple applies at those contents; it leaves them as they were — for the block of A, the same fill, which
    cut back to the array is the block — and the result's buffer at some contents; the invariant and the core's
    debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  have hx : win0_0.cut (grid0.coords t) (ablk8 m c t) = iblk m c 0 t := win0_0.cut_fill _ _ _
  iintro ⟨HΦ, Ho, ⟨%d0, H0⟩, ⟨%d1, H1⟩, ⟨%d2, H2⟩, ⟨%X3, H3⟩⟩
  iapply (sound_kernel c Set.univ (grid0.coords t) _ _ _ _ _ _ _ _
    (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0; rw [hx]; iexact H0
  isplitl [H1]; · iexact H1
  isplitl [H2]; · iexact H2
  iexists _; iexact H3

/-- The library's body obligation at every point, the result's window forgotten and the window of A stated on the rows
    inside the array. -/
theorem body_obligation (c : Dev nD) :
    BodyObligationLoose (dats (F := F) m 0 c) (defs₀ (F := F)) Variants.none () Set.univ forgets0 := fun t => by
  rw [bigSep_W0, bigSep_W0]
  exact sound_body m c t

/-! ## The run and the frame -/

-- the run theorem's implicit arguments are determined by unifying its conclusion with the one stated here
set_option backward.isDefEq.respectTransparency.types false in
/-- At the compiled mesh, for any values, from any memory with zero counters: every weakly fair execution of @main on the
    TensorCore terminates, and every final state has each input array of the pipeline at contents it may hold after the
    run — its entry contents: an input is never written back —, nothing stated of the result's array, and every other
    unscoped buffer at its region-entry contents. -/
theorem run_main : θ_run defs (onTc (τ := τ) (main (F := F))) (s₀ m ρ)
    (Pipeline.RDat.FramePost (cfgs 0) (fun c => (dats m 0 c).toRForget forgets0) (V m)) :=
  Pipeline.RDat.θ_run_frame cfgs (0 : Fin 1) launch0 defs₀ Variants.none (fun c => (dats m 0 c).toRForget forgets0) m ρ main
    (hbody := fun c => (body_obligation m c).toRForget) (hshare := fun c => ((dats m 0 c).toRForget forgets0).share_full fun _ => rfl)
    (howed := fun _ _ => rfl) (V := V m) (hmain := hmain m Variants.none) (hA := A_eq m) (hΦ := fun _ _ => rfl)

/-- info: 'Cert.Kernel.Hand.run_main' depends on axioms: [propext, Classical.choice, Quot.sound] -/
#guard_msgs in #print axioms run_main

/-- THE FRAME: the run leaves the three argument arrays as launched. x (window 1's array) and A (window 0's) are inputs
    of the pipeline, never written back, so each ends at its entry contents, which no host operation before the region
    wrote; W is staged by no window and is among the buffers the region leaves as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((congrFun (Pipeline.RDat.ArrAt_in ((dats m 0 c).toRForget forgets0) 1 rfl _) _).mp ((h c).1 1)).trans
        ((A_eq m c 1).trans (V_main_arg0 m c)),
      ((congrFun (Pipeline.RDat.ArrAt_in ((dats m 0 c).toRForget forgets0) 0 rfl _) _).mp ((h c).1 0)).trans
        ((A_eq m c 0).trans (V_main_arg1 m c)),
      ((h c).2 main_arg2 (Pipeline.mem_restRefs_of main_arg2 (by decide) (by decide))).trans (V_main_arg2 m c)⟩)
    (run_main m ρ)

end Cert.Kernel.Hand

end
-- ==== Proof.KIBody.lean ====
/-
  The kernel body of the idealized program, run once on whole staging buffers.

  The body loads its three input blocks whole (a 640-row block of A, all of x, the weight row), multiplies the block of A
  by x, scales every row by the weight row, and stores the 640 x 128 product whole into the output's staging buffer.
  After it the inputs' buffers are as they were and the output's holds that product of what the inputs' held.
-/
import proofs.«175242_g78194174591220_cont_9to1_m_1274_13_alg».proof.Proof.Gen.KernelIdeal.Launch
import proofs.«175242_g78194174591220_cont_9to1_m_1274_13_alg».proof.Proof.Gen.KernelIdeal.Skeleton
import proofs.«175242_g78194174591220_cont_9to1_m_1274_13_alg».proof.Proof.Gen.KernelIdeal.Points
import proofs.«175242_g78194174591220_cont_9to1_m_1274_13_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each buffer whole -/

abbrev rA : Rect S640x10000 := Rect.unit (s := S640x10000) ![0, 0] S640x10000.size inb_S640x10000_S640x10000_0_0
abbrev rX : Rect S10000x128 := Rect.unit (s := S10000x128) ![0, 0] S10000x128.size inb_S10000x128_S10000x128_0_0
abbrev rW : Rect S1x128 := Rect.unit (s := S1x128) ![0, 0] S1x128.size inb_S1x128_S1x128_0_0
abbrev rO : Rect S640x128 := Rect.unit (s := S640x128) ![0, 0] S640x128.size inb_S640x128_S640x128_0_0

/-- The output's staging buffer after the body, from what the three inputs' buffers hold: its one whole store. -/
def out0_3 (x0 : Vec F S640x10000 .f32) (x1 : Vec F S10000x128 .f32) (x2 : Vec F S1x128 .f32) : Vec F S640x128 .f32 :=
  View.canon [⟨rO, k0_pay1 (View.ld x0 rA) (View.ld x1 rX) (View.ld x2 rW)⟩]

/-- The one store covers the buffer. -/
theorem cover0_3 (p0 : Vec F S640x128 .f32) (y : S640x128.Idx) :
    ∃ pc ∈ ([⟨rO, p0⟩] : List (View.Piece (Elt F) S640x128 .f32)), y ∈ pc.1.set :=
  View.cover_of_tiled [⟨rO, p0⟩] S640x128.size (by rfl) y

set_option maxHeartbeats 1000000 in
/-- The body on whole staging buffers, the inputs' at contents `x0`, `x1`, `x2` and the output's at anything, runs to the
    continuation holding the inputs' as they were and the output's at `out0_3 x0 x1 x2`. -/
theorem sound_kernel (c : Dev nD) (E : Set ℕ) (i : grid0.Coords) (arg1 : Memref sig .tc .vmem S640x10000 .f32) (harg1 : arg1.IsWhole)
    (arg2 : Memref sig .tc .vmem S10000x128 .f32) (harg2 : arg2.IsWhole) (arg3 : Memref sig .tc .vmem S1x128 .f32) (harg3 : arg3.IsWhole)
    (arg4 : Memref sig .tc .vmem S640x128 .f32) (harg4 : arg4.IsWhole)
    (x0 : Vec F S640x10000 .f32) (x1 : Vec F S10000x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__gcn_body i arg1 harg1 arg2 harg2 arg3 harg3 arg4 harg4) K := by
  simp only [cc0__gcn_body_eq_skeleton]; unfold cc0__gcn_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

end Cert.KernelIdeal.Hand

end
-- ==== Proof.LibKeepdims.lean ====
/-
  Layout operations of a two-axis block read at coordinates: the casts between a block [1, 1, a, b] and its matrix
  [a, b], and the column forms a row reduction kept as a column needs — a vector [a] cast to a column [a, 1], and a
  column [a, 1] broadcast along b lanes. Each is the general read-at-an-index lemma of the operation with both indices
  written by coordinates, the coordinates' arithmetic done once here.
-/
import Idealize.ShloMosaic.Lib.Pipeline.Value
import Idealize.ShloMosaic.Lib.ValueIdx

namespace Cert.LibKeepdims

open Idealize.ShloMosaic Idealize.ShloMosaic.ValueIdx

variable {α : Type}

/-- A [1, 1, a, b] block cast to the matrix [a, b] reads, at (i, j), the block at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A matrix [a, b] cast to the block [1, 1, a, b] reads, at (u, v, i, j), the matrix at (i, j), whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A vector [a] cast to the column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along b lanes reads, at (i, j), the column at (i, 0). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- So a vector [a] kept as a column and broadcast along b lanes reads, at (i, j), the vector at i. -/
theorem column_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (i : Fin a) (j : Fin b) :
    broadcastTo ⟨2, ![a, b]⟩ (shapeCast ⟨2, ![a, 1]⟩ x h₁) h₂ (ix2 i j) = x (ix1 i) :=
  (broadcastTo_a1_ab_apply _ h₂ i j).trans (shapeCast_a_a1_apply x h₁ i 0)

end Cert.LibKeepdims
-- ==== Proof.LibDenseLayer.lean ====
/-
  A dense layer with per-row scales, read at a row and a column, at the extended reals.

  Two arrangements of the same arithmetic are read here at an index (r, q) and found to be one function of the operands:
  the fused body of a row-block kernel — scale the rows of a block, multiply by a weight matrix on the matrix unit into a
  zero accumulator, add a bias row, clamp below at zero, then either scale the rows again or multiply by a second weight
  matrix and add a second bias row — and the same steps written as whole-array host operations (`dot_general`,
  `broadcast_in_dim` of the scale vectors and of the bias vectors). At the extended reals a change of float format is
  the identity and both products are the plain sum over the contracted coordinate, so no algebraic law is needed: both
  arrangements unfold to `hidAt` below, term by term.
-/
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws
import proofs.«175242_g78194174591220_cont_9to1_m_1274_13_alg».proof.Proof.LibKeepdims

noncomputable section

namespace Cert.LibDenseLayer

open Idealize.ShloMosaic Idealize.ShloMosaic.ValueIdx Cert.LibKeepdims

/-! ## The layout operations of the two arrangements, read at coordinates -/

section Layout
variable {α : Type}

/-- A vector [a] placed in dimension 0 of a column [a, 1] reads, at (i, u), the vector at i. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column [a, 1] placed in dimensions (0, 1) of [a, b] reads, at (i, j), the column at (i, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ => rfl

/-- A vector [b] placed in dimension 1 of a row [1, b] reads, at (u, j), the vector at j. -/
theorem broadcastInDim_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A row [1, b] placed in dimensions (0, 1) of [a, b] reads, at (i, j), the row at (0, j). -/
theorem broadcastInDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ => rfl
  | ⟨1, _⟩ =>
    show j.val = if b = 1 then 0 else j.val
    split
    · have := j.isLt; omega
    · rfl

end Layout

/-! ## The matrix unit's plain product into a zero accumulator -/

/-- The plain product of an m×k by a k×n matrix on the matrix unit, into the zero accumulator, read at (a, b), is the
    sum over the contracted coordinate of the products of the entries: the host's product of the same operands. -/
theorem matmul_plain_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  ((Ideal.matmul_constant_zero_apply (DotDims.plain m k n) prec A B (ix2 a b)).trans
    (Ideal.dotGeneral_apply (DotDims.plain m k n) prec .single A B (ix2 a b)).symm).trans
    (StackMember.dotGeneral_plain_apply prec A B a b)

/-! ## The layer, entry by entry -/

section Layer
variable {n d h c : ℕ}

/-- The hidden activation at row r and column q: the row of `A` scaled by its entry of the column `s`, multiplied by
    `W`, the bias row `b` added, clamped below at `z`. -/
def hidAt (A : (⟨2, ![n, d]⟩ : Shape).Idx → EReal) (s : (⟨2, ![n, 1]⟩ : Shape).Idx → EReal)
    (W : (⟨2, ![d, h]⟩ : Shape).Idx → EReal) (b : (⟨2, ![1, h]⟩ : Shape).Idx → EReal) (z : EReal) (r : Fin n) (q : Fin h) : EReal :=
  max ((∑ k : Fin d, (A (ix2 r k) * s (ix2 r (0 : Fin 1))) * W (ix2 k q)) + b (ix2 (0 : Fin 1) q)) z

/-- The hidden activation with each row scaled again by its entry of the column `u`. -/
def scaledLayer (A : (⟨2, ![n, d]⟩ : Shape).Idx → EReal) (s u : (⟨2, ![n, 1]⟩ : Shape).Idx → EReal)
    (W : (⟨2, ![d, h]⟩ : Shape).Idx → EReal) (b : (⟨2, ![1, h]⟩ : Shape).Idx → EReal) (z : EReal) :
    (⟨2, ![n, h]⟩ : Shape).Idx → EReal :=
  fun i => hidAt A s W b z (i 0) (i 1) * u (ix2 (i 0) (0 : Fin 1))

/-- The hidden activation multiplied by a second matrix `Wf`, the bias row `bf` added. -/
def classifiedLayer (A : (⟨2, ![n, d]⟩ : Shape).Idx → EReal) (s : (⟨2, ![n, 1]⟩ : Shape).Idx → EReal)
    (W : (⟨2, ![d, h]⟩ : Shape).Idx → EReal) (b : (⟨2, ![1, h]⟩ : Shape).Idx → EReal)
    (Wf : (⟨2, ![h, c]⟩ : Shape).Idx → EReal) (bf : (⟨2, ![1, c]⟩ : Shape).Idx → EReal) (z : EReal) :
    (⟨2, ![n, c]⟩ : Shape).Idx → EReal :=
  fun i => (∑ k : Fin h, hidAt A s W b z (i 0) k * Wf (ix2 k (i 1))) + bf (ix2 (0 : Fin 1) (i 1))

theorem scaledLayer_apply (A : (⟨2, ![n, d]⟩ : Shape).Idx → EReal) (s u : (⟨2, ![n, 1]⟩ : Shape).Idx → EReal)
    (W : (⟨2, ![d, h]⟩ : Shape).Idx → EReal) (b : (⟨2, ![1, h]⟩ : Shape).Idx → EReal) (z : EReal) (r : Fin n) (q : Fin h) :
    scaledLayer A s u W b z (ix2 r q) = hidAt A s W b z r q * u (ix2 r (0 : Fin 1)) := rfl

theorem classifiedLayer_apply (A : (⟨2, ![n, d]⟩ : Shape).Idx → EReal) (s : (⟨2, ![n, 1]⟩ : Shape).Idx → EReal)
    (W : (⟨2, ![d, h]⟩ : Shape).Idx → EReal) (b : (⟨2, ![1, h]⟩ : Shape).Idx → EReal)
    (Wf : (⟨2, ![h, c]⟩ : Shape).Idx → EReal) (bf : (⟨2, ![1, c]⟩ : Shape).Idx → EReal) (z : EReal) (r : Fin n) (q : Fin c) :
    classifiedLayer A s W b Wf bf z (ix2 r q) = (∑ k : Fin h, hidAt A s W b z r k * Wf (ix2 k q)) + bf (ix2 (0 : Fin 1) q) := rfl

end Layer

/-! ## The two arrangements -/

section Arrangements
variable {n d h c : ℕ}

/-- THE FUSED BODY's hidden activation: rows scaled by a column, rounded to bf16 (the identity here), multiplied on the
    matrix unit by the rounded weight into a zero accumulator, the bias row added, clamped below at the zero splat. -/
theorem fusedHidden_apply
    (x0 : FVec Ideal ⟨2, ![n, d]⟩ .f32) (x1 : FVec Ideal ⟨2, ![n, 1]⟩ .f32) (x3 : FVec Ideal ⟨2, ![d, h]⟩ .f32)
    (x4 : FVec Ideal ⟨2, ![1, h]⟩ .f32)
    (c0 : (⟨2, ![n, d]⟩ : Shape).ShapeCasts ⟨2, ![n, d]⟩) (c1 : (⟨2, ![n, 1]⟩ : Shape).ShapeCasts ⟨2, ![n, 1]⟩)
    (b1 : (⟨2, ![n, 1]⟩ : Shape).Broadcasts ⟨2, ![n, d]⟩) (lt : FTy.bits .bf16 < FTy.bits .f32)
    (c4 : (⟨2, ![1, h]⟩ : Shape).ShapeCasts ⟨2, ![1, h]⟩) (b4 : (⟨2, ![1, h]⟩ : Shape).Broadcasts ⟨2, ![n, h]⟩)
    (r : Fin n) (q : Fin h) :
    (maximumf (addf (matmul (DotDims.plain n d h) none
          (truncf .bf16 (mulf (shapeCast ⟨2, ![n, d]⟩ x0 c0) (broadcastTo ⟨2, ![n, d]⟩ (shapeCast ⟨2, ![n, 1]⟩ x1 c1) b1)) lt)
          (truncf .bf16 x3 lt) (constant ⟨2, ![n, h]⟩ .f32 0x00000000#32))
        (broadcastTo ⟨2, ![n, h]⟩ (shapeCast ⟨2, ![1, h]⟩ x4 c4) b4))
      (broadcast ⟨2, ![n, h]⟩ (Scalar.ofBits .f32 0x00000000#32)) : FVec Ideal ⟨2, ![n, h]⟩ .f32) (ix2 r q)
    = hidAt x0 x1 x3 x4 (Ideal.ofBits .f32 0x00000000#32) r q := by
  simp only [shapeCast_self]
  rw [maximumf_apply, addf_apply, broadcast_apply, broadcastTo_1b_ab_apply, matmul_plain_apply]
  unfold hidAt
  refine congrArg (max · _) (congrArg (· + x4 (ix2 (0 : Fin 1) q)) (Finset.sum_congr rfl fun k _ => ?_))
  rw [truncf_apply, truncf_apply, mulf_apply, broadcastTo_a1_ab_apply]

/-- THE FUSED BODY that scales the rows again by a second column and rounds the result to bf16. -/
theorem fusedScaled_apply
    (x0 : FVec Ideal ⟨2, ![n, d]⟩ .f32) (x1 x2 : FVec Ideal ⟨2, ![n, 1]⟩ .f32) (x3 : FVec Ideal ⟨2, ![d, h]⟩ .f32)
    (x4 : FVec Ideal ⟨2, ![1, h]⟩ .f32)
    (c0 : (⟨2, ![n, d]⟩ : Shape).ShapeCasts ⟨2, ![n, d]⟩) (c1 : (⟨2, ![n, 1]⟩ : Shape).ShapeCasts ⟨2, ![n, 1]⟩)
    (b1 : (⟨2, ![n, 1]⟩ : Shape).Broadcasts ⟨2, ![n, d]⟩) (lt : FTy.bits .bf16 < FTy.bits .f32)
    (c4 : (⟨2, ![1, h]⟩ : Shape).ShapeCasts ⟨2, ![1, h]⟩) (b4 : (⟨2, ![1, h]⟩ : Shape).Broadcasts ⟨2, ![n, h]⟩)
    (b2 : (⟨2, ![n, 1]⟩ : Shape).Broadcasts ⟨2, ![n, h]⟩) (r : Fin n) (q : Fin h) :
    (truncf .bf16 (mulf (maximumf (addf (matmul (DotDims.plain n d h) none
            (truncf .bf16 (mulf (shapeCast ⟨2, ![n, d]⟩ x0 c0) (broadcastTo ⟨2, ![n, d]⟩ (shapeCast ⟨2, ![n, 1]⟩ x1 c1) b1)) lt)
            (truncf .bf16 x3 lt) (constant ⟨2, ![n, h]⟩ .f32 0x00000000#32))
          (broadcastTo ⟨2, ![n, h]⟩ (shapeCast ⟨2, ![1, h]⟩ x4 c4) b4))
        (broadcast ⟨2, ![n, h]⟩ (Scalar.ofBits .f32 0x00000000#32)))
      (broadcastTo ⟨2, ![n, h]⟩ (shapeCast ⟨2, ![n, 1]⟩ x2 c1) b2)) lt : FVec Ideal ⟨2, ![n, h]⟩ .bf16) (ix2 r q)
    = scaledLayer x0 x1 x2 x3 x4 (Ideal.ofBits .f32 0x00000000#32) (ix2 r q) := by
  rw [truncf_apply, mulf_apply, fusedHidden_apply, broadcastTo_a1_ab_apply, shapeCast_self, scaledLayer_apply]

/-- THE FUSED BODY that rounds the hidden activation to bf16, multiplies it on the matrix unit by a second rounded weight
    into a zero accumulator and adds a second bias row. -/
theorem fusedClassified_apply
    (x0 : FVec Ideal ⟨2, ![n, d]⟩ .f32) (x1 : FVec Ideal ⟨2, ![n, 1]⟩ .f32) (x3 : FVec Ideal ⟨2, ![d, h]⟩ .f32)
    (x4 : FVec Ideal ⟨2, ![1, h]⟩ .f32) (x5 : FVec Ideal ⟨2, ![h, c]⟩ .f32) (x6 : FVec Ideal ⟨2, ![1, c]⟩ .f32)
    (c0 : (⟨2, ![n, d]⟩ : Shape).ShapeCasts ⟨2, ![n, d]⟩) (c1 : (⟨2, ![n, 1]⟩ : Shape).ShapeCasts ⟨2, ![n, 1]⟩)
    (b1 : (⟨2, ![n, 1]⟩ : Shape).Broadcasts ⟨2, ![n, d]⟩) (lt : FTy.bits .bf16 < FTy.bits .f32)
    (c4 : (⟨2, ![1, h]⟩ : Shape).ShapeCasts ⟨2, ![1, h]⟩) (b4 : (⟨2, ![1, h]⟩ : Shape).Broadcasts ⟨2, ![n, h]⟩)
    (c6 : (⟨2, ![1, c]⟩ : Shape).ShapeCasts ⟨2, ![1, c]⟩) (b6 : (⟨2, ![1, c]⟩ : Shape).Broadcasts ⟨2, ![n, c]⟩)
    (r : Fin n) (q : Fin c) :
    (addf (matmul (DotDims.plain n h c) none
        (truncf .bf16 (maximumf (addf (matmul (DotDims.plain n d h) none
              (truncf .bf16 (mulf (shapeCast ⟨2, ![n, d]⟩ x0 c0) (broadcastTo ⟨2, ![n, d]⟩ (shapeCast ⟨2, ![n, 1]⟩ x1 c1) b1)) lt)
              (truncf .bf16 x3 lt) (constant ⟨2, ![n, h]⟩ .f32 0x00000000#32))
            (broadcastTo ⟨2, ![n, h]⟩ (shapeCast ⟨2, ![1, h]⟩ x4 c4) b4))
          (broadcast ⟨2, ![n, h]⟩ (Scalar.ofBits .f32 0x00000000#32))) lt)
        (truncf .bf16 x5 lt) (constant ⟨2, ![n, c]⟩ .f32 0x00000000#32))
      (broadcastTo ⟨2, ![n, c]⟩ (shapeCast ⟨2, ![1, c]⟩ x6 c6) b6) : FVec Ideal ⟨2, ![n, c]⟩ .f32) (ix2 r q)
    = classifiedLayer x0 x1 x3 x4 x5 x6 (Ideal.ofBits .f32 0x00000000#32) (ix2 r q) := by
  rw [addf_apply, broadcastTo_1b_ab_apply, shapeCast_self x6, matmul_plain_apply, classifiedLayer_apply]
  refine congrArg (· + x6 (ix2 (0 : Fin 1) q)) (Finset.sum_congr rfl fun k _ => ?_)
  rw [truncf_apply, truncf_apply, fusedHidden_apply]

/-- THE HOST ARRANGEMENT's hidden activation: the rows scaled by a vector placed as a column and spread along the lanes,
    the host's product with the weight, the bias vector placed as a row and spread along the rows, clamped below at the
    zero constant spread over the array. -/
theorem hostHidden_apply
    (A : FVec Ideal ⟨2, ![n, d]⟩ .f32) (s : FVec Ideal ⟨1, ![n]⟩ .f32) (W : FVec Ideal ⟨2, ![d, h]⟩ .f32) (b : FVec Ideal ⟨1, ![h]⟩ .f32)
    (g1 : (⟨1, ![n]⟩ : Shape).BroadcastsInDim ⟨2, ![n, 1]⟩ ![0])
    (g2 : (⟨2, ![n, 1]⟩ : Shape).BroadcastsInDim ⟨2, ![n, d]⟩ ![0, 1])
    (g3 : (⟨1, ![h]⟩ : Shape).BroadcastsInDim ⟨2, ![1, h]⟩ ![1])
    (g4 : (⟨2, ![1, h]⟩ : Shape).BroadcastsInDim ⟨2, ![n, h]⟩ ![0, 1])
    (g5 : (⟨0, ![]⟩ : Shape).BroadcastsInDim ⟨2, ![n, h]⟩ ![])
    (c1 : (⟨1, ![n]⟩ : Shape).ShapeCasts ⟨2, ![n, 1]⟩) (c2 : (⟨1, ![h]⟩ : Shape).ShapeCasts ⟨2, ![1, h]⟩)
    (r : Fin n) (q : Fin h) :
    (maximumf (addf (Host.dotGeneral (DotDims.plain n d h) none
          (mulf A (broadcastInDim ⟨2, ![n, d]⟩ ![0, 1] g2 (broadcastInDim ⟨2, ![n, 1]⟩ ![0] g1 s))) W)
        (broadcastInDim ⟨2, ![n, h]⟩ ![0, 1] g4 (broadcastInDim ⟨2, ![1, h]⟩ ![1] g3 b)))
      (broadcastInDim ⟨2, ![n, h]⟩ ![] g5 (constant ⟨0, ![]⟩ .f32 0x00000000#32)) : FVec Ideal ⟨2, ![n, h]⟩ .f32) (ix2 r q)
    = hidAt A (shapeCast ⟨2, ![n, 1]⟩ s c1) W (shapeCast ⟨2, ![1, h]⟩ b c2) (Ideal.ofBits .f32 0x00000000#32) r q := by
  rw [maximumf_apply, addf_apply, StackMember.dotGeneral_plain_apply, broadcastInDim_1b_ab_apply, broadcastInDim_b_1b_apply]
  unfold hidAt
  rw [shapeCast_a_1a_apply]
  refine congrArg (max · _) (congrArg (· + b (ix1 q)) (Finset.sum_congr rfl fun k _ => ?_))
  rw [mulf_apply, broadcastInDim_a1_ab_apply, broadcastInDim_a_a1_apply, shapeCast_a_a1_apply]

/-- THE HOST ARRANGEMENT with the rows scaled again by a second vector: the same array as the fused body's. -/
theorem hostScaled_eq
    (A : FVec Ideal ⟨2, ![n, d]⟩ .f32) (s u : FVec Ideal ⟨1, ![n]⟩ .f32) (W : FVec Ideal ⟨2, ![d, h]⟩ .f32) (b : FVec Ideal ⟨1, ![h]⟩ .f32)
    (g1 : (⟨1, ![n]⟩ : Shape).BroadcastsInDim ⟨2, ![n, 1]⟩ ![0])
    (g2 : (⟨2, ![n, 1]⟩ : Shape).BroadcastsInDim ⟨2, ![n, d]⟩ ![0, 1])
    (g2' : (⟨2, ![n, 1]⟩ : Shape).BroadcastsInDim ⟨2, ![n, h]⟩ ![0, 1])
    (g3 : (⟨1, ![h]⟩ : Shape).BroadcastsInDim ⟨2, ![1, h]⟩ ![1])
    (g4 : (⟨2, ![1, h]⟩ : Shape).BroadcastsInDim ⟨2, ![n, h]⟩ ![0, 1])
    (g5 : (⟨0, ![]⟩ : Shape).BroadcastsInDim ⟨2, ![n, h]⟩ ![])
    (c1 : (⟨1, ![n]⟩ : Shape).ShapeCasts ⟨2, ![n, 1]⟩) (c2 : (⟨1, ![h]⟩ : Shape).ShapeCasts ⟨2, ![1, h]⟩) :
    (mulf (maximumf (addf (Host.dotGeneral (DotDims.plain n d h) none
            (mulf A (broadcastInDim ⟨2, ![n, d]⟩ ![0, 1] g2 (broadcastInDim ⟨2, ![n, 1]⟩ ![0] g1 s))) W)
          (broadcastInDim ⟨2, ![n, h]⟩ ![0, 1] g4 (broadcastInDim ⟨2, ![1, h]⟩ ![1] g3 b)))
        (broadcastInDim ⟨2, ![n, h]⟩ ![] g5 (constant ⟨0, ![]⟩ .f32 0x00000000#32)))
      (broadcastInDim ⟨2, ![n, h]⟩ ![0, 1] g2' (broadcastInDim ⟨2, ![n, 1]⟩ ![0] g1 u)) : FVec Ideal ⟨2, ![n, h]⟩ .f32)
    = scaledLayer A (shapeCast ⟨2, ![n, 1]⟩ s c1) (shapeCast ⟨2, ![n, 1]⟩ u c1) W (shapeCast ⟨2, ![1, h]⟩ b c2)
        (Ideal.ofBits .f32 0x00000000#32) := by
  funext i
  obtain ⟨r, q, rfl⟩ : ∃ (r : Fin n) (q : Fin h), i = ix2 r q := ⟨i 0, i 1, eq_ix2 i⟩
  rw [mulf_apply, hostHidden_apply A s W b g1 g2 g3 g4 g5 c1 c2, broadcastInDim_a1_ab_apply, broadcastInDim_a_a1_apply,
    scaledLayer_apply, shapeCast_a_a1_apply]

/-- THE HOST ARRANGEMENT followed by the host's product with a second weight and a second bias vector: the same array as
    the fused body's. -/
theorem hostClassified_eq
    (A : FVec Ideal ⟨2, ![n, d]⟩ .f32) (s : FVec Ideal ⟨1, ![n]⟩ .f32) (W : FVec Ideal ⟨2, ![d, h]⟩ .f32) (b : FVec Ideal ⟨1, ![h]⟩ .f32)
    (Wf : FVec Ideal ⟨2, ![h, c]⟩ .f32) (bf : FVec Ideal ⟨1, ![c]⟩ .f32)
    (g1 : (⟨1, ![n]⟩ : Shape).BroadcastsInDim ⟨2, ![n, 1]⟩ ![0])
    (g2 : (⟨2, ![n, 1]⟩ : Shape).BroadcastsInDim ⟨2, ![n, d]⟩ ![0, 1])
    (g3 : (⟨1, ![h]⟩ : Shape).BroadcastsInDim ⟨2, ![1, h]⟩ ![1])
    (g4 : (⟨2, ![1, h]⟩ : Shape).BroadcastsInDim ⟨2, ![n, h]⟩ ![0, 1])
    (g5 : (⟨0, ![]⟩ : Shape).BroadcastsInDim ⟨2, ![n, h]⟩ ![])
    (g6 : (⟨1, ![c]⟩ : Shape).BroadcastsInDim ⟨2, ![1, c]⟩ ![1])
    (g7 : (⟨2, ![1, c]⟩ : Shape).BroadcastsInDim ⟨2, ![n, c]⟩ ![0, 1])
    (c1 : (⟨1, ![n]⟩ : Shape).ShapeCasts ⟨2, ![n, 1]⟩) (c2 : (⟨1, ![h]⟩ : Shape).ShapeCasts ⟨2, ![1, h]⟩)
    (c3 : (⟨1, ![c]⟩ : Shape).ShapeCasts ⟨2, ![1, c]⟩) :
    (addf (Host.dotGeneral (DotDims.plain n h c) none
        (maximumf (addf (Host.dotGeneral (DotDims.plain n d h) none
              (mulf A (broadcastInDim ⟨2, ![n, d]⟩ ![0, 1] g2 (broadcastInDim ⟨2, ![n, 1]⟩ ![0] g1 s))) W)
            (broadcastInDim ⟨2, ![n, h]⟩ ![0, 1] g4 (broadcastInDim ⟨2, ![1, h]⟩ ![1] g3 b)))
          (broadcastInDim ⟨2, ![n, h]⟩ ![] g5 (constant ⟨0, ![]⟩ .f32 0x00000000#32))) Wf)
      (broadcastInDim ⟨2, ![n, c]⟩ ![0, 1] g7 (broadcastInDim ⟨2, ![1, c]⟩ ![1] g6 bf)) : FVec Ideal ⟨2, ![n, c]⟩ .f32)
    = classifiedLayer A (shapeCast ⟨2, ![n, 1]⟩ s c1) W (shapeCast ⟨2, ![1, h]⟩ b c2) Wf (shapeCast ⟨2, ![1, c]⟩ bf c3)
        (Ideal.ofBits .f32 0x00000000#32) := by
  funext i
  obtain ⟨r, q, rfl⟩ : ∃ (r : Fin n) (q : Fin c), i = ix2 r q := ⟨i 0, i 1, eq_ix2 i⟩
  rw [addf_apply, StackMember.dotGeneral_plain_apply, broadcastInDim_1b_ab_apply, broadcastInDim_b_1b_apply,
    classifiedLayer_apply, shapeCast_a_1a_apply]
  refine congrArg (· + bf (ix1 q)) (Finset.sum_congr rfl fun k _ => ?_)
  rw [hostHidden_apply A s W b g1 g2 g3 g4 g5 c1 c2]

end Arrangements

end Cert.LibDenseLayer

end
-- ==== Proof.KIPayload.lean ====
/-
  What the body stores, entry by entry, at the extended reals.

  With X the 640-row block of A, x the second operand and w the weight row, the stored 640 x 128 block at (p, q) is
  (Σₖ X[p,k] · x[k,q]) · w[0,q]: the matrix unit's product into a zero accumulator is the plain sum over the contracted
  coordinate, and the weight row is broadcast down the rows. In particular row p of the stored block reads X only on
  its row p: two blocks X, X' that agree on row p give the same stored row p.
-/
import proofs.«175242_g78194174591220_cont_9to1_m_1274_13_alg».proof.Proof.KIBody
import proofs.«175242_g78194174591220_cont_9to1_m_1274_13_alg».proof.Proof.LibDenseLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-- The stored block at row p and column q. -/
theorem out0_3_apply (X : FVec Ideal S640x10000 .f32) (x1 : FVec Ideal S10000x128 .f32) (x2 : FVec Ideal S1x128 .f32)
    (p : Fin 640) (q : Fin 128) :
    out0_3 (F := Ideal) X x1 x2 (ix2 p q) = (∑ k : Fin 10000, X (ix2 p k) * x1 (ix2 k q)) * x2 (ix2 (0 : Fin 1) q) := by
  have hz : (![0, 0] : Fin 2 → Nat) = fun _ => 0 := funext fun a => by fin_cases a <;> rfl
  unfold out0_3
  rw [View.canon_unit_zero hz]
  simp only [View.ld_unit_zero (S := S640x10000) hz, View.ld_unit_zero (S := S10000x128) hz, View.ld_unit_zero (S := S1x128) hz]
  unfold k0_pay1
  show (matmul dot_S640x10000_S10000x128_S640x128_1_0_0_1_n_n none X x1 (constant S640x128 .f32 0x00000000#32) (ix2 p q))
      * (broadcastTo S640x128 (shapeCast S1x128 x2 shapeCasts_S1x128_S1x128) broadcasts_S1x128_S640x128 (ix2 p q)) = _
  rw [shapeCast_self]
  refine congrArg₂ (· * ·) ?_ ?_
  · exact Cert.LibDenseLayer.matmul_plain_apply none X x1 p q
  · exact broadcastTo_1b_ab_apply x2 _ p q

/-- Row p of the stored block depends on the block of A only through its row p. -/
theorem out0_3_congr_row (X X' : FVec Ideal S640x10000 .f32) (x1 : FVec Ideal S10000x128 .f32) (x2 : FVec Ideal S1x128 .f32)
    (p : Fin 640) (q : Fin 128) (h : ∀ k : Fin 10000, X (ix2 p k) = X' (ix2 p k)) :
    out0_3 (F := Ideal) X x1 x2 (ix2 p q) = out0_3 (F := Ideal) X' x1 x2 (ix2 p q) := by
  rw [out0_3_apply, out0_3_apply]
  exact congrArg (· * _) (Finset.sum_congr rfl fun k _ => by rw [h k])

end Cert.KernelIdeal.Hand

end
-- ==== Proof.LibWindowCut.lean ====
/-
  A staging block whose leading part a transfer moves, read at one element.

  A clipped window moves only the leading part of its block (the part inside the array). Two contents of the block with the
  same leading part agree at every element of it, and a block filled on its leading part reads, there, what it was filled
  with. Both say that an element whose every coordinate is below the moved size is an element of the leading part.
-/
import Idealize.ShloMosaic.Lib.Pipeline

namespace Idealize.ShloMosaic.Pipeline.Window

variable {sig : RefSig} {G : Grid} (w : Window sig G)

/-- Contents that are cut alike agree wherever every coordinate is below the moved size. -/
theorem eq_of_cut_eq {α : Type} (i : G.Coords) {X Y : w.block.Idx → α} (h : w.cut i X = w.cut i Y) (j : w.block.Idx)
    (hj : ∀ a, (j a).val < w.xsize i a) : X j = Y j := by
  have e : w.xinj i (fun a => ⟨(j a).val, hj a⟩) = j := funext fun a => Fin.ext rfl
  rw [← e]
  exact congrFun h _

/-- A filled block, where every coordinate is below the moved size, reads what it was filled with. -/
theorem fill_apply_of_lt {α : Type} (i : G.Coords) (d : w.block.Idx → α) (g : (w.xblock i).Idx → α) (j : w.block.Idx)
    (hj : ∀ a, (j a).val < w.xsize i a) : w.fill i d g j = g (fun a => ⟨(j a).val, hj a⟩) := by
  unfold fill
  rw [dif_pos ((w.moved_iff i j).mpr hj)]

end Idealize.ShloMosaic.Pipeline.Window
-- ==== Proof.KIData.lean ====
/-
  The idealized program's region, point by point, at the extended reals.

  At grid point t the pipeline hands the body a 640-row block of A (rows 640t … 640t+639; at the last point only the first
  400 of them exist, and the rest of the staging buffer holds words fixed by nothing), all of x, and the weight row; the body
  leaves in the output's buffer the product block of KIPayload, whose row p reads the block of A on its row p only. So the
  rows of the product block that are written back — those inside the array — do not depend on the unnamed tail, and the
  region's proof data can name them: the block of A filled out with zeros, x, the weight row, and the product of those.
-/
import proofs.«175242_g78194174591220_cont_9to1_m_1274_13_alg».proof.Proof.KIPayload
import proofs.«175242_g78194174591220_cont_9to1_m_1274_13_alg».proof.Proof.LibWindowCut

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- The block of A at point `t`, its rows past the array's end filled with zeros. -/
def blockA (c : Dev nD) (t : Fin cfg0.N) : S640x10000.Idx → EReal :=
  win0_0.fill (grid0.coords t) (fun _ => (0 : EReal)) (iblk m c 0 t)

/-- After the body at point `t`: the block of A (filled out), x, the weight row, and their product block. -/
def dats (_ : Fin 1) (c : Dev nD) : Dat τ (Elt Ideal) Unit ℕ (UR sig nD τ) ℕ cfg0 c where
  A w := V m c (Pipeline.arrRef spec0 w)
  after w t := match w with
    | ⟨0, _⟩ => blockA m c t
    | ⟨1, _⟩ => iblk m c 1 t
    | ⟨2, _⟩ => iblk m c 2 t
    | ⟨3, _⟩ => out0_3 (blockA m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = blockA m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (blockA m c t) (iblk m c 1 t) (iblk m c 2 t) := by dsimp only [dats]

/-- The block of A is fetched at every point: its buffer holds the block on the rows inside the array, anything past. -/
theorem before0_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The rows written back do not read the unnamed tail -/

/-- The rows of the block of A inside the array are those of the product block, and a block of A spans every column. -/
theorem xsize_facts : ∀ t : Fin cfg0.N, win0_0.xsize (grid0.coords t) 0 = win0_3.xsize (grid0.coords t) 0
    ∧ win0_0.xsize (grid0.coords t) 1 = 10000 :=
  (by decide +kernel : ∀ t : Fin grid0.N, win0_0.xsize (grid0.coords t) 0 = win0_3.xsize (grid0.coords t) 0
    ∧ win0_0.xsize (grid0.coords t) 1 = 10000)

/-- The part of the product block that is written back is the same whatever fills the block of A past the array's end. -/
theorem cut_out_eq (t : Fin cfg0.N) (d : S640x10000.Idx → EReal)
    (g : (win0_0.xblock (grid0.coords t)).Idx → EReal)
    (x1 : FVec Ideal S10000x128 .f32) (x2 : FVec Ideal S1x128 .f32) :
    win0_3.cut (grid0.coords t) (out0_3 (F := Ideal) (win0_0.fill (grid0.coords t) d g) x1 x2)
      = win0_3.cut (grid0.coords t) (out0_3 (F := Ideal) (win0_0.fill (grid0.coords t) (fun _ => (0 : EReal)) g) x1 x2) := by
  funext y
  have hy0 : (y 0).val < win0_3.xsize (grid0.coords t) 0 := (y 0).isLt
  obtain ⟨f0, f1⟩ := xsize_facts t
  show out0_3 (F := Ideal) _ x1 x2 (win0_3.xinj (grid0.coords t) y) = out0_3 (F := Ideal) _ x1 x2 (win0_3.xinj (grid0.coords t) y)
  obtain ⟨p, q, hpq, hp⟩ : ∃ (p : Fin 640) (q : Fin 128), win0_3.xinj (grid0.coords t) y = ix2 p q ∧ p.val = (y 0).val :=
    ⟨(win0_3.xinj (grid0.coords t) y) 0, (win0_3.xinj (grid0.coords t) y) 1, eq_ix2 _, rfl⟩
  rw [hpq]
  refine out0_3_congr_row _ _ x1 x2 p q fun k => ?_
  refine Window.eq_of_cut_eq win0_0 (grid0.coords t) ((win0_0.cut_fill _ _ _).trans (win0_0.cut_fill _ _ _).symm) (ix2 p k) fun a => ?_
  match a with
  | ⟨0, _⟩ => show p.val < win0_0.xsize (grid0.coords t) 0; omega
  | ⟨1, _⟩ => show k.val < win0_0.xsize (grid0.coords t) 1; have := k.isLt; omega

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare (win0_3.fill (grid0.coords t) d (win0_3.cut (grid0.coords t) ((dats m 0 c).after 3 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have hx : win0_0.cut (grid0.coords t) (blockA m c t) = iblk m c 0 t := win0_0.cut_fill _ _ _
  have h3 : win0_3.fill (grid0.coords t) (out0_3 (F := Ideal) (win0_0.fill (grid0.coords t) d0 (iblk m c 0 t)) (iblk m c 1 t) (iblk m c 2 t))
      (win0_3.cut (grid0.coords t) (out0_3 (F := Ideal) (blockA m c t) (iblk m c 1 t) (iblk m c 2 t)))
      = out0_3 (F := Ideal) (win0_0.fill (grid0.coords t) d0 (iblk m c 0 t)) (iblk m c 1 t) (iblk m c 2 t) := by
    unfold blockA
    rw [← cut_out_eq t d0 (iblk m c 0 t) (iblk m c 1 t) (iblk m c 2 t)]
    exact win0_3.fill_cut _ _
  isplitl [H0]
  · iexists d0; rw [hx]; iexact H0
  isplitl [H1]; · iexact H1
  isplitl [H2]; · iexact H2
  · iexists _; rw [h3]; iexact H3

theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of the program terminates without a fault; each array of the region then holds what the
    proof data compute (an input what it held, the output its entry contents overwritten block by block), and every
    other buffer what it held when the region was entered. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Cert.KernelIdeal.Hand

end
-- ==== Proof.KIValue.lean ====
/-
  The idealized program's result array, as one function of the argument arrays.

  Point t writes back rows 640t … of the product block, and those rows read A on the same rows of the array: row r of the
  result is (Σₖ A[r,k] · x[k,q]) · W[q] at column q, whichever point wrote it. The sixteen blocks cover the 10000 rows
  (the last one with its 400 rows inside the array), so the whole result array is that function.
-/
import proofs.«175242_g78194174591220_cont_9to1_m_1274_13_alg».proof.Proof.KIData
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The result at row r and column q: the row of A times the column of x, scaled by the column's weight. -/
def prodAt (x : S10000x128.Idx → EReal) (A : S10000x10000.Idx → EReal) (W : S128.Idx → EReal) (r : Fin 10000) (q : Fin 128) : EReal :=
  (∑ k : Fin 10000, A (ix2 r k) * x (ix2 k q)) * W (ix1 q)

/-- The result array. -/
def G3 (x : S10000x128.Idx → EReal) (A : S10000x10000.Idx → EReal) (W : S128.Idx → EReal) : S10000x128.Idx → EReal :=
  fun i => prodAt x A W (i 0) (i 1)

/-- The weight row as the region finds it: the weight vector with a leading unit axis. -/
theorem V_main_v0 (c : Dev nD) :
    (V m c main_v0 : S1x128.Idx → EReal) = shapeCast S1x128 (m ((c : Thread nD τ).loc main_arg2) : S128.Idx → EReal) shapeCasts_S128_S1x128 := by
  dsimp only [V, hostOps0]; after_results; rfl

/-- The printed index maps over the grid: the block of A and the output block are at block row t and block column 0; x and
    the weight row are whole; the rows a block has inside the array end at the array's end. -/
theorem idx_facts : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val
    ∧ win0_3.xsize (grid0.coords t) 0 = min 640 (10000 - t.val * 640)
    ∧ win0_3.xsize (grid0.coords t) 1 = 128 :=
  (by decide +kernel : ∀ t : Fin grid0.N, _)

/-- What point t writes back is block t of the result array. -/
theorem flushed3_eq (c : Dev nD) (t : Fin cfg0.N) :
    (dats m 0 c).flushed 3 t = ((cfg0.win 3).blk t).view.read (Elt Ideal)
      (G3 (V m c main_arg0) (V m c main_arg1) (m ((c : Thread nD τ).loc main_arg2))) := by
  show (cfg0.win 3).cut (grid0.coords t) ((dats m 0 c).after 3 t) = _
  rw [after0_3]
  obtain ⟨e0, e1, e2, e3, e4, e5, e6, e7, e8, e9⟩ := idx_facts t
  obtain ⟨f0, f1⟩ := xsize_facts t
  funext y
  have hy0 : (y 0).val < win0_3.xsize (grid0.coords t) 0 := (y 0).isLt
  have hy1 : (y 1).val < win0_3.xsize (grid0.coords t) 1 := (y 1).isLt
  show out0_3 (F := Ideal) (blockA m c t) (iblk m c 1 t) (iblk m c 2 t) (win0_3.xinj (grid0.coords t) y)
    = G3 (V m c main_arg0) (V m c main_arg1) (m ((c : Thread nD τ).loc main_arg2)) (((cfg0.win 3).blk t).view.emb y)
  obtain ⟨p, q, hpq, hp, hq⟩ : ∃ (p : Fin 640) (q : Fin 128), win0_3.xinj (grid0.coords t) y = ix2 p q ∧ p.val = (y 0).val ∧ q.val = (y 1).val :=
    ⟨(win0_3.xinj (grid0.coords t) y) 0, (win0_3.xinj (grid0.coords t) y) 1, eq_ix2 _, rfl, rfl⟩
  obtain ⟨r, q', hrq, hr, hq'⟩ : ∃ (r : Fin 10000) (q' : Fin 128), ((cfg0.win 3).blk t).view.emb y = ix2 r q'
      ∧ r.val = win0_3.index t (0 : Fin 2) * 640 + 1 * (y 0).val ∧ q'.val = win0_3.index t (1 : Fin 2) * 128 + 1 * (y 1).val :=
    ⟨(((cfg0.win 3).blk t).view.emb y) 0, (((cfg0.win 3).blk t).view.emb y) 1, eq_ix2 _, rfl, rfl⟩
  have hqq : q' = q := Fin.ext (by omega)
  subst hqq
  rw [hpq, hrq, out0_3_apply]
  show _ = prodAt (V m c main_arg0) (V m c main_arg1) (m ((c : Thread nD τ).loc main_arg2)) r q'
  unfold prodAt
  -- the weight row at column q
  have hw : iblk m c 2 t (ix2 (0 : Fin 1) q') = m ((c : Thread nD τ).loc main_arg2) (ix1 q') := by
    have e : iblk m c 2 t (ix2 (0 : Fin 1) q') = (V m c main_v0 : S1x128.Idx → EReal) (ix2 (0 : Fin 1) q') := by
      show V m c main_v0 (((cfg0.win 2).blk t).view.emb (ix2 (0 : Fin 1) q')) = V m c main_v0 (ix2 (0 : Fin 1) q')
      refine congrArg _ (funext fun a => Fin.ext ?_)
      match a with
      | ⟨0, _⟩ => show win0_2.index t (0 : Fin 2) * 1 + 1 * 0 = 0; omega
      | ⟨1, _⟩ => show win0_2.index t (1 : Fin 2) * 128 + 1 * q'.val = q'.val; omega
    rw [e, V_main_v0]
    exact shapeCast_a_1a_apply _ _ (0 : Fin 1) q'
  -- x at row k and column q
  have hx : ∀ k : Fin 10000, iblk m c 1 t (ix2 k q') = V m c main_arg0 (ix2 k q') := fun k => by
    show V m c main_arg0 (((cfg0.win 1).blk t).view.emb (ix2 k q')) = V m c main_arg0 (ix2 k q')
    refine congrArg _ (funext fun a => Fin.ext ?_)
    match a with
    | ⟨0, _⟩ => show win0_1.index t (0 : Fin 2) * 10000 + 1 * k.val = k.val; omega
    | ⟨1, _⟩ => show win0_1.index t (1 : Fin 2) * 128 + 1 * q'.val = q'.val; omega
  -- the block of A at row p and column k is A at row r and column k
  have ha : ∀ k : Fin 10000, blockA m c t (ix2 p k) = V m c main_arg1 (ix2 r k) := fun k => by
    have hlt : ∀ a, ((ix2 p k : S640x10000.Idx) a).val < win0_0.xsize (grid0.coords t) a := fun a => by
      match a with
      | ⟨0, _⟩ => show p.val < win0_0.xsize (grid0.coords t) 0; omega
      | ⟨1, _⟩ => show k.val < win0_0.xsize (grid0.coords t) 1; have := k.isLt; omega
    unfold blockA
    rw [Window.fill_apply_of_lt win0_0 (grid0.coords t) _ _ (ix2 p k) hlt]
    show V m c main_arg1 (((cfg0.win 0).blk t).view.emb _) = V m c main_arg1 (ix2 r k)
    refine congrArg _ (funext fun a => Fin.ext ?_)
    match a with
    | ⟨0, _⟩ => show win0_0.index t (0 : Fin 2) * 640 + 1 * p.val = r.val; omega
    | ⟨1, _⟩ => show win0_0.index t (1 : Fin 2) * 10000 + 1 * k.val = k.val; omega
  rw [hw]
  exact congrArg (· * _) (Finset.sum_congr rfl fun k _ => by rw [ha k, hx k])

/-- An index of the result array is in point t's block iff its row is among the block's rows inside the array. -/
theorem mem_blk3 (t : Fin cfg0.N) (i : S10000x128.Idx) :
    i ∈ ((cfg0.win 3).blk t).view.set ↔ ∀ a : Fin 2, win0_3.index t a * S640x128.size a ≤ (i a).val
      ∧ (i a).val < win0_3.index t a * S640x128.size a + win0_3.xsize (grid0.coords t) a := by
  show i ∈ ((View.whole main_v1).slice (win0_3.rect t)).set ↔ _
  rw [View.set_slice_whole, Rect.mem_set_unit]
  exact Iff.rfl

/-- Every index of the result array is in the block of the point its row falls in. -/
theorem cover3 (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 16 := N_0
  let t : Fin cfg0.N := ⟨(i 0).val / 640, by rw [hN]; omega⟩
  have ht : t.val = (i 0).val / 640 := rfl
  obtain ⟨e0, e1, e2, e3, e4, e5, e6, e7, e8, e9⟩ := idx_facts t
  refine ⟨t, flush0_3 t, ?_⟩
  rw [mem_blk3]
  intro a
  match a with
  | ⟨0, _⟩ =>
    show win0_3.index t (0 : Fin 2) * 640 ≤ (i 0).val ∧ (i 0).val < win0_3.index t (0 : Fin 2) * 640 + win0_3.xsize (grid0.coords t) 0
    omega
  | ⟨1, _⟩ =>
    show win0_3.index t (1 : Fin 2) * 128 ≤ (i 1).val ∧ (i 1).val < win0_3.index t (1 : Fin 2) * 128 + win0_3.xsize (grid0.coords t) 1
    omega

/-- The result array after the run. -/
theorem final3 (c : Dev nD) : (dats m 0 c).arrAt 3 cfg0.N
    = G3 (m ((c : Thread nD τ).loc main_arg0)) (m ((c : Thread nD τ).loc main_arg1)) (m ((c : Thread nD τ).loc main_arg2)) := by
  rw [← V_main_arg0 m c, ← V_main_arg1 m c]
  exact (dats m 0 c).arrAt_eq_of_cover 3 _ (fun t _ => flushed3_eq m c t) cover3

/-- The run, read: the result array is `G3` of the argument arrays, and the argument arrays are unchanged. -/
theorem run : θ_run defs (onTc (τ := τ) (main (F := Ideal))) ⟨m, fun _ => 0, ρ⟩ fun r => ∀ c : Dev nD,
      r.2.mem ((c : Thread nD τ).loc main_v1)
        = G3 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final3 m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c)⟩)
    (run_main m ρ)

end Cert.KernelIdeal.Hand

end
-- ==== Proof.RefRun.lean ====
/- The reference program's @main as the list of its fifteen host operations, the two calls unfolded at their
   sites over the calls' buffer records, and its run read back: every weakly fair execution terminates with the
   result buffer at the operations' composed pure term of the arguments' launch contents, the arguments unchanged. -/
import proofs.«175242_g78194174591220_cont_9to1_m_1274_13_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

/-- The diagonal matrix of a vector, as the program builds it: where the row index equals the column index the
    vector's entry at the row (the vector first padded by nothing, then repeated along the columns), elsewhere
    the zero word. -/
def diagVal (W : FVec F S128 .f32) : FVec F S128x128 .f32 :=
  select
    (cmpi .eq (addi (iotaInDim S128x128 32 0) (broadcastInDim S128x128 ![] bcast_S_S128x128 (constantI S_ 32 0#32)))
      (iotaInDim S128x128 32 1))
    (broadcastInDim S128x128 ![0, 1] bcast_S128x1_S128x128_0_1
      (broadcastInDim S128x1 ![0] bcast_S128_S128x1_0
        (pad S128 ![0] ![0] ![0] W (constant (F := F) S_ .f32 0x00000000#32) pads_S128_S128_000 h_S_)))
    (broadcastInDim S128x128 ![] bcast_S_S128x128 (constant (F := F) S_ .f32 0x00000000#32))

/-- The reference's result as one term of its three arguments: the second argument times (the first times the
    diagonal matrix of the third), both products the host's dot_general. -/
def refVal (x : FVec F S10000x128 .f32) (A : FVec F S10000x10000 .f32) (W : FVec F S128 .f32) :
    FVec F S10000x128 .f32 :=
  Host.dotGeneral dot_S10000x10000_S10000x128_S10000x128_1_0_0_1_n_n none A
    (Host.dotGeneral dot_S10000x128_S128x128_S10000x128_1_0_0_1_n_n none x (diagVal W))

/-- @main's fifteen operations, in order: the diagonal's ten, the select's three (two broadcasts and the
    select), the two products. -/
abbrev ops : List (HloOp τ sig (Elt F)) :=
  [ TRef.nullary main_call0.cst (constant S_ .f32 0x00000000#32),
    TRef.binary (.of main_arg2) main_call0.cst main_call0.v0 (fun x v => pad S128 ![0] ![0] ![0] x v pads_S128_S128_000 h_S_),
    TRef.nullary main_call0.v1 (iotaInDim S128x128 32 0),
    TRef.nullary main_call0.v2 (iotaInDim S128x128 32 1),
    TRef.nullary main_call0.c (constantI S_ 32 0#32),
    TRef.unary main_call0.c main_call0.v3 (broadcastInDim S128x128 ![] bcast_S_S128x128),
    TRef.binary main_call0.v1 main_call0.v3 main_call0.v4 addi,
    TRef.binary main_call0.v4 main_call0.v2 main_call0.v5 (cmpi .eq),
    TRef.unary main_call0.v0 main_call0.v6 (broadcastInDim S128x1 ![0] bcast_S128_S128x1_0),
    TRef.nullary main_call0.cst_0 (constant S_ .f32 0x00000000#32),
    TRef.unary main_call0.v6 main_call0.call0.v0 (broadcastInDim S128x128 ![0, 1] bcast_S128x1_S128x128_0_1),
    TRef.unary main_call0.cst_0 main_call0.call0.v1 (broadcastInDim S128x128 ![] bcast_S_S128x128),
    TRef.ternary main_call0.v5 main_call0.call0.v0 main_call0.call0.v1 main_call0.call0.v2 select,
    binary main_arg0 main_v0 main_v1 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v1 main_v2 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)) ]

set_option maxRecDepth 1024 in
/-- @main is that straight line: the two functions' definitions unfolded at their calls, both sides are one chain
    of steps once sequencing is reassociated. -/
theorem main_eq (c : Dev nD) : main (F := F) c = seq ops := by
  simp only [main, fn_diag.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., nullary_bufs_sub .., nullary_bufs_sub .., nullary_bufs_sub .., unary_bufs_sub ..,
    binary_bufs_sub .., binary_bufs_sub .., unary_bufs_sub .., nullary_bufs_sub .., unary_bufs_sub .., unary_bufs_sub ..,
    ternary_bufs_sub .., binary_bufs_sub .., binary_bufs_sub ..⟩

/-- On every device, for any float values, from any memory with zero counters: every weakly fair execution of
    @main terminates with the result at the operations' composed term of the arguments, the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v2) = refVal (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v2).trans (by after_results; rfl),
      (h c main_arg0).trans (by after_results),
      (h c main_arg1).trans (by after_results),
      (h c main_arg2).trans (by after_results)⟩)
    (run_seq scopedRefs_eq scopedSems_eq defs main (fun _ => ops) main_eq (fun _ => ops_sub) m ρ)

end Cert.ReferenceIdeal.Hand

end
-- ==== Proof.RefRead.lean ====
/- The reference's result read at an index. The diagonal matrix of W has W's entry where the row index is the column
   index and zero elsewhere (two numbers below 128 are equal as 32-bit words exactly when they are equal; the zero
   word is the real zero; padding by nothing changes nothing); so the product of x with it has, at (k, j), the one
   term x[k, j] · W[j], every other term a product with zero — which is zero on the extended reals whatever the
   other factor, so no finiteness is asked —, and the outer product is the sum over the contraction index. -/
import proofs.«175242_g78194174591220_cont_9to1_m_1274_13_alg».proof.Proof.RefRun
import Idealize.ShloMosaic.Lib.IdealHost
import Idealize.ShloMosaic.Lib.KernelVsHost
import Idealize.ShloMosaic.Lib.Pipeline.Value

noncomputable section

open scoped BigOperators

namespace Cert.ReferenceIdeal.Hand

open Cert.ReferenceIdeal Idealize.ShloMosaic Idealize.ShloMosaic.ValueIdx
open Cert.ReferenceIdeal.Facts₀ Cert.ReferenceIdeal.Facts

variable [Facts]

/-- Two numbers below 128, written as 32-bit words (the first with the zero word added), compare equal exactly when
    they are equal. -/
theorem diagBit (l j : Fin 128) :
    IntOp.cmpi .eq (IntOp.addi (BitVec.ofNat 32 l.val) 0#32) (BitVec.ofNat 32 j.val) = if l = j then 1#1 else 0#1 := by
  have hl := l.isLt
  have hj := j.isLt
  by_cases h : l = j
  · subst h; simp [IntOp.cmpi, IntOp.addi]
  · have hne : (BitVec.ofNat 32 l.val) ≠ (BitVec.ofNat 32 j.val) := by
      intro e
      have e' := congrArg BitVec.toNat e
      simp only [BitVec.toNat_ofNat] at e'
      exact h (Fin.ext (by omega))
    have hb : (BitVec.ofNat 32 l.val == BitVec.ofNat 32 j.val) = false := beq_eq_false_iff_ne.mpr hne
    simp [IntOp.cmpi, IntOp.addi, h, hb]

/-- The diagonal matrix at (l, j): W's entry at l on the diagonal, the real zero off it. -/
theorem diagVal_apply (W : FVec Ideal S128 .f32) (l j : Fin 128) :
    diagVal (F := Ideal) W (ix2 l j) = if l = j then W (ix1 l) else 0 := by
  unfold diagVal
  rw [select_apply]
  have hc : cmpi .eq (addi (iotaInDim S128x128 32 0) (broadcastInDim S128x128 ![] bcast_S_S128x128 (constantI S_ 32 0#32)))
      (iotaInDim S128x128 32 1) (ix2 l j) = if l = j then 1#1 else 0#1 := by
    show IntOp.cmpi .eq (IntOp.addi (iotaInDim S128x128 32 0 (ix2 l j))
      (broadcastInDim S128x128 ![] bcast_S_S128x128 (constantI S_ 32 0#32) (ix2 l j))) (iotaInDim S128x128 32 1 (ix2 l j)) = _
    rw [broadcastInDim_scalar_apply, iotaInDim_apply, iotaInDim_apply]
    exact diagBit l j
  rw [hc]
  by_cases h : l = j
  · rw [if_pos h, if_pos h, select_one]
    rw [broadcastInDim_apply ![0, 1] bcast_S128x1_S128x128_0_1 _ (ix2 l j) (ix2 l (0 : Fin 1))
      (fun a => match a with | ⟨0, _⟩ => rfl | ⟨1, _⟩ => rfl)]
    rw [broadcastInDim_apply ![0] bcast_S128_S128x1_0 _ (ix2 l (0 : Fin 1)) (ix1 l)
      (fun a => match a with | ⟨0, _⟩ => rfl)]
    exact pad_apply_of_inside ![0] ![0] ![0] W _ pads_S128_S128_000 h_S_ (ix1 l) (ix1 l)
      (fun a => match a with | ⟨0, _⟩ => by show l.val = 0 + l.val * (0 + 1); omega)
  · rw [if_neg h, if_neg h, select_zero, broadcastInDim_scalar_apply, constant_apply]
    exact Ideal.ofBits_zero_f32

/-! ## The two products' operand indices

Both products contract the left operand's second axis with the right operand's first: at result index (r, c) and
contraction position q the left operand is read at (r, q) and the right at (q, c). -/

/-- The inner product's left index. -/
theorem lhsIdx_inner (k : Fin 10000) (j l : Fin 128) :
    dot_S10000x128_S128x128_S10000x128_1_0_0_1_n_n.lhsIdx (ix2 k j) ((contrEquiv1 dot_S10000x128_S128x128_S10000x128_1_0_0_1_n_n 128 rfl rfl).symm l) = ix2 k l := by
  funext a
  match a with
  | ⟨0, _⟩ => exact Fin.ext (by simp [DotDims.lhsIdx, dot_S10000x128_S128x128_S10000x128_1_0_0_1_n_n]; rfl)
  | ⟨1, _⟩ =>
    refine Fin.ext ?_
    rw [DotDims.lhsIdx_val_of_single dot_S10000x128_S128x128_S10000x128_1_0_0_1_n_n (cl := ⟨1, by decide⟩) rfl]
    exact contrEquiv1_symm_val dot_S10000x128_S128x128_S10000x128_1_0_0_1_n_n 128 rfl rfl l

/-- The inner product's right index. -/
theorem rhsIdx_inner (k : Fin 10000) (j l : Fin 128) :
    dot_S10000x128_S128x128_S10000x128_1_0_0_1_n_n.rhsIdx (ix2 k j) ((contrEquiv1 dot_S10000x128_S128x128_S10000x128_1_0_0_1_n_n 128 rfl rfl).symm l) = ix2 l j := by
  funext a
  match a with
  | ⟨0, _⟩ =>
    refine Fin.ext ?_
    rw [DotDims.rhsIdx_val_of_single dot_S10000x128_S128x128_S10000x128_1_0_0_1_n_n (cr := ⟨0, by decide⟩) rfl]
    exact contrEquiv1_symm_val dot_S10000x128_S128x128_S10000x128_1_0_0_1_n_n 128 rfl rfl l
  | ⟨1, _⟩ => exact Fin.ext (by simp [DotDims.rhsIdx, dot_S10000x128_S128x128_S10000x128_1_0_0_1_n_n]; rfl)

/-- The outer product's left index. -/
theorem lhsIdx_outer (i : Fin 10000) (j : Fin 128) (k : Fin 10000) :
    dot_S10000x10000_S10000x128_S10000x128_1_0_0_1_n_n.lhsIdx (ix2 i j) ((contrEquiv1 dot_S10000x10000_S10000x128_S10000x128_1_0_0_1_n_n 10000 rfl rfl).symm k) = ix2 i k := by
  funext a
  match a with
  | ⟨0, _⟩ => exact Fin.ext (by simp [DotDims.lhsIdx, dot_S10000x10000_S10000x128_S10000x128_1_0_0_1_n_n]; rfl)
  | ⟨1, _⟩ =>
    refine Fin.ext ?_
    rw [DotDims.lhsIdx_val_of_single dot_S10000x10000_S10000x128_S10000x128_1_0_0_1_n_n (cl := ⟨1, by decide⟩) rfl]
    exact contrEquiv1_symm_val dot_S10000x10000_S10000x128_S10000x128_1_0_0_1_n_n 10000 rfl rfl k

/-- The outer product's right index. -/
theorem rhsIdx_outer (i : Fin 10000) (j : Fin 128) (k : Fin 10000) :
    dot_S10000x10000_S10000x128_S10000x128_1_0_0_1_n_n.rhsIdx (ix2 i j) ((contrEquiv1 dot_S10000x10000_S10000x128_S10000x128_1_0_0_1_n_n 10000 rfl rfl).symm k) = ix2 k j := by
  funext a
  match a with
  | ⟨0, _⟩ =>
    refine Fin.ext ?_
    rw [DotDims.rhsIdx_val_of_single dot_S10000x10000_S10000x128_S10000x128_1_0_0_1_n_n (cr := ⟨0, by decide⟩) rfl]
    exact contrEquiv1_symm_val dot_S10000x10000_S10000x128_S10000x128_1_0_0_1_n_n 10000 rfl rfl k
  | ⟨1, _⟩ => exact Fin.ext (by simp [DotDims.rhsIdx, dot_S10000x10000_S10000x128_S10000x128_1_0_0_1_n_n]; rfl)

/-! ## The products at an index -/

/-- x times the diagonal matrix of W, at (k, j): the one term on the diagonal, x[k, j] · W[j]; every other term is a
    product with zero, which is zero whatever the other factor. -/
theorem xdiag_apply (x : FVec Ideal S10000x128 .f32) (W : FVec Ideal S128 .f32) (k : Fin 10000) (j : Fin 128) :
    Host.dotGeneral dot_S10000x128_S128x128_S10000x128_1_0_0_1_n_n none x (diagVal W) (ix2 k j) = x (ix2 k j) * W (ix1 j) := by
  show FloatOps.dotGeneral dot_S10000x128_S128x128_S10000x128_1_0_0_1_n_n none .single x (diagVal W) (ix2 k j) = _
  rw [Ideal.dotGeneral_apply, ← Equiv.sum_comp (contrEquiv1 dot_S10000x128_S128x128_S10000x128_1_0_0_1_n_n 128 rfl rfl).symm]
  simp only [lhsIdx_inner, rhsIdx_inner, diagVal_apply]
  rw [Finset.sum_eq_single j]
  · rw [if_pos rfl]
  · intro l _ hl
    rw [if_neg hl, mul_zero]
  · intro hj
    exact absurd (Finset.mem_univ j) hj

/-- The reference's result at (i, j): the sum over k of A[i, k] · (x[k, j] · W[j]). -/
theorem refVal_apply (x : FVec Ideal S10000x128 .f32) (A : FVec Ideal S10000x10000 .f32) (W : FVec Ideal S128 .f32)
    (i : Fin 10000) (j : Fin 128) :
    refVal (F := Ideal) x A W (ix2 i j) = ∑ k : Fin 10000, A (ix2 i k) * (x (ix2 k j) * W (ix1 j)) := by
  unfold refVal
  show FloatOps.dotGeneral dot_S10000x10000_S10000x128_S10000x128_1_0_0_1_n_n none .single A (Host.dotGeneral dot_S10000x128_S128x128_S10000x128_1_0_0_1_n_n none x (diagVal W)) (ix2 i j) = _
  rw [Ideal.dotGeneral_apply, ← Equiv.sum_comp (contrEquiv1 dot_S10000x10000_S10000x128_S10000x128_1_0_0_1_n_n 10000 rfl rfl).symm]
  simp only [lhsIdx_outer, rhsIdx_outer, xdiag_apply]

end Cert.ReferenceIdeal.Hand

end
-- ==== Proof.SumLaw.lean ====
/-
  The one algebraic law that joins the two programs.

  The kernel scales each entry of the product A·x by the column's weight after summing; the reference scales each entry
  of x first and sums afterwards. On the extended reals a factor moves across a finite sum when every term is a real
  number: the sum is then a sum in ℝ, where multiplication distributes. (With an infinite term it need not: ⊤ + ⊥ = ⊥
  scaled by −1 differs from −⊤ + −⊥.)
-/
import Mathlib.Data.EReal.Basic
import Mathlib.Data.EReal.Operations
import Mathlib.Algebra.BigOperators.Ring.Finset

namespace Cert.SumLaw

open scoped BigOperators

/-- The coercion of ℝ into the extended reals commutes with finite sums. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A real factor moves across a finite sum of products of reals: (Σₖ aₖ·bₖ)·w = Σₖ aₖ·(bₖ·w). -/
theorem sum_mul_mul {ι : Type*} [Fintype ι] (a b : ι → EReal) (w : EReal)
    (ha : ∀ k, ∃ r : ℝ, a k = r) (hb : ∀ k, ∃ r : ℝ, b k = r) (hw : ∃ r : ℝ, w = r) :
    (∑ k, a k * b k) * w = ∑ k, a k * (b k * w) := by
  choose a' ha using ha
  choose b' hb using hb
  obtain ⟨w', rfl⟩ := hw
  have h1 : ∀ k, a k * b k = ((a' k * b' k : ℝ) : EReal) := fun k => by rw [ha, hb, EReal.coe_mul]
  have h2 : ∀ k, a k * (b k * (w' : EReal)) = ((a' k * (b' k * w') : ℝ) : EReal) := fun k => by
    rw [ha, hb, EReal.coe_mul, EReal.coe_mul]
  simp only [h1, h2]
  rw [← coe_sum, ← coe_sum, ← EReal.coe_mul, Finset.sum_mul]
  exact congrArg _ (Finset.sum_congr rfl fun k _ => mul_assoc _ _ _)

end Cert.SumLaw
-- ==== Proof.Bridge.lean ====
/-
  The two programs compute one function of real arguments.

  The idealized kernel's result at (r, q) is (Σₖ A[r,k]·x[k,q])·W[q]; the reference's is Σₖ A[r,k]·(x[k,q]·W[q]) (its
  product with the diagonal matrix of W being x[k,q]·W[q]). When every entry of A, x and W is a real number the factor
  W[q] moves across the sum, and the two agree.
-/
import proofs.«175242_g78194174591220_cont_9to1_m_1274_13_alg».proof.Proof.KIValue
import proofs.«175242_g78194174591220_cont_9to1_m_1274_13_alg».proof.Proof.RefRead
import proofs.«175242_g78194174591220_cont_9to1_m_1274_13_alg».proof.Proof.SumLaw

noncomputable section

namespace Cert.Bridge

open Idealize.ShloMosaic Idealize.ShloMosaic.ValueIdx

variable [Cert.ReferenceIdeal.Facts]

/-- The kernel's result array is the reference's, entry by entry, on arrays of reals. -/
theorem result_eq (x : FVec Ideal Cert.KernelIdeal.S10000x128 .f32) (A : FVec Ideal Cert.KernelIdeal.S10000x10000 .f32)
    (W : FVec Ideal Cert.KernelIdeal.S128 .f32)
    (hx : ∀ i, ∃ r : ℝ, x i = r) (hA : ∀ i, ∃ r : ℝ, A i = r) (hW : ∀ i, ∃ r : ℝ, W i = r) :
    Cert.KernelIdeal.Hand.G3 x A W = Cert.ReferenceIdeal.Hand.refVal (F := Ideal) x A W := by
  funext i
  obtain ⟨r, q, rfl⟩ : ∃ (r : Fin 10000) (q : Fin 128), i = ix2 r q := ⟨i 0, i 1, eq_ix2 i⟩
  rw [Cert.ReferenceIdeal.Hand.refVal_apply]
  show Cert.KernelIdeal.Hand.prodAt x A W r q = _
  unfold Cert.KernelIdeal.Hand.prodAt
  exact Cert.SumLaw.sum_mul_mul (fun k => A (ix2 r k)) (fun k => x (ix2 k q)) (W (ix1 q))
    (fun k => hA _) (fun k => hx _) (hW _)

end Cert.Bridge

end
-- ==== Proof.Finite.lean ====
/-
  The precondition read back: every entry of the three argument arrays is a real number.

  The predicate is the conjunction of three "all entries satisfy |v| < +∞"; an extended real whose absolute value
  max v (−v) lies strictly below +∞ is neither +∞ nor −∞, hence a real.
-/
import proofs.«175242_g78194174591220_cont_9to1_m_1274_13_alg».proof.Pre_finite_inputs
import Idealize.ShloMosaic.Lib.ReduceAll
import Idealize.ShloMosaic.Lib.ValueIdx
import Idealize.ShloMosaic.PureOps.Ideal

namespace Cert.Finite

open Idealize.ShloMosaic Cert.Pre_finite_inputs

instance : Subsingleton S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- An extended real whose absolute value compares below +∞ is a real. -/
theorem real_of_abs_lt (v : EReal) (h : Ideal.cmp .olt (max v (-v)) (Ideal.ofBits .f32 0x7F800000#32) = 1#1) :
    ∃ r : ℝ, v = r := by
  rw [inf_word] at h
  induction v using EReal.rec with
  | bot => simp [Ideal.cmp] at h
  | coe r => exact ⟨r, rfl⟩
  | top => simp [Ideal.cmp] at h

variable [Facts]

/-- Under the precondition every entry of every argument array is a real number. -/
theorem reals_of_pre (x : FVec Ideal S10000x128 .f32) (A : FVec Ideal S10000x10000 .f32) (W : FVec Ideal S128 .f32)
    (h : fn (F := Ideal) x A W = fun _ => 1#1) :
    (∀ i, ∃ r : ℝ, x i = r) ∧ (∀ i, ∃ r : ℝ, A i = r) ∧ (∀ i, ∃ r : ℝ, W i = r) := by
  have h0 := congrFun h ValueIdx.ix0
  dsimp only [fn, andi] at h0
  obtain ⟨h01, h2⟩ := IntOp.andi_eq_one.1 h0
  obtain ⟨h0', h1⟩ := IntOp.andi_eq_one.1 h01
  refine ⟨fun i => ?_, fun i => ?_, fun i => ?_⟩
  · exact real_of_abs_lt _ (Host.reduce_andi_all _ _ _ _ _ h0' i)
  · exact real_of_abs_lt _ (Host.reduce_andi_all _ _ _ _ _ h1 i)
  · exact real_of_abs_lt _ (Host.reduce_andi_all _ _ _ _ _ h2 i)

end Cert.Finite
-- ==== Proof.lean ====
/-
  The certificate of a graph-convolution kernel against its reference: output = A · (x · diag(W)) for a dense
  10000 x 10000 matrix A, features x of 128 columns and a weight vector W.

  The kernel streams A in sixteen blocks of 640 rows (the last holds 400 rows of the array), multiplies each block by all of
  x and scales column q of the product by W[q]; the reference builds diag(W), forms x · diag(W) and multiplies by A. At the
  extended reals the kernel's entry (r, q) is (Σₖ A[r,k]·x[k,q])·W[q] and the reference's is Σₖ A[r,k]·(x[k,q]·W[q]); they
  agree because under the precondition every entry is a real number, where a factor moves across a finite sum.

  The parts: the word-level kernel's frame with the output block forgotten (what the matrix unit makes of the unnamed rows
  past the array's end cannot be named, and nothing reads it); the idealized kernel's run with its result array named,
  which is possible because row p of a product block reads only row p of the block of A; the reference's run, read at an
  index; the precondition read back to "every entry is real"; and the sum law.
-/
import proofs.«175242_g78194174591220_cont_9to1_m_1274_13_alg».proof.Defs
import proofs.«175242_g78194174591220_cont_9to1_m_1274_13_alg».proof.Proof.Gen.Kernel
import proofs.«175242_g78194174591220_cont_9to1_m_1274_13_alg».proof.Proof.Gen.KernelIdeal
import proofs.«175242_g78194174591220_cont_9to1_m_1274_13_alg».proof.Proof.Gen.ReferenceIdeal
import proofs.«175242_g78194174591220_cont_9to1_m_1274_13_alg».proof.Proof.Gen.Pre_finite_inputs
import proofs.«175242_g78194174591220_cont_9to1_m_1274_13_alg».proof.Proof.KernelFrame
import proofs.«175242_g78194174591220_cont_9to1_m_1274_13_alg».proof.Proof.KIValue
import proofs.«175242_g78194174591220_cont_9to1_m_1274_13_alg».proof.Proof.RefRun
import proofs.«175242_g78194174591220_cont_9to1_m_1274_13_alg».proof.Proof.Bridge
import proofs.«175242_g78194174591220_cont_9to1_m_1274_13_alg».proof.Proof.Finite
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_k : Cert.frame_Kernel := fun m ρ _ => Cert.Kernel.Hand.frame (F := Bits) m ρ

/-- So does the idealized kernel: its run with the result dropped. -/
theorem frame_ki : Cert.frame_KernelIdeal := fun m ρ _ =>
  (θ_run Cert.KernelIdeal.defs _ _).mono (fun _ h c => (h c).2) (Cert.KernelIdeal.Hand.run m ρ)

/-- And the reference. -/
theorem frame_ri : Cert.frame_ReferenceIdeal := fun m ρ _ =>
  (θ_run Cert.ReferenceIdeal.defs _ _).mono (fun _ h c => (h c).2) (Cert.ReferenceIdeal.Hand.run (F := Ideal) m ρ)

/-- From memories that agree on finite arguments both idealized programs end with the same result array. -/
theorem algebraic : Cert.algebraic_KernelIdeal_ReferenceIdeal := by
  intro m ρ m' ρ' hpre hagree
  refine ⟨fun c => Cert.KernelIdeal.Hand.G3 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2]
  obtain ⟨hx, hA, hW⟩ := Cert.Finite.reals_of_pre _ _ _ (hpre c)
  exact (Cert.Bridge.result_eq _ _ _ hx hA hW).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
